-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S16384x512 .f32) (main_arg1 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S16384x512 : Shape := ⟨2, ![16384, 512]⟩
abbrev S4096x512 : Shape := ⟨2, ![4096, 512]⟩
abbrev S_ : Shape := ⟨0, ![]⟩
abbrev S4096 : Shape := ⟨1, ![4096]⟩
abbrev S1x4096 : Shape := ⟨2, ![1, 4096]⟩
abbrev S16384x4096 : Shape := ⟨2, ![16384, 4096]⟩
abbrev S1024x512 : Shape := ⟨2, ![1024, 512]⟩
abbrev S1024x1024 : Shape := ⟨2, ![1024, 1024]⟩
abbrev S1024x1 : Shape := ⟨2, ![1024, 1]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S4096x512, .bf16⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S4096x512, .bf16⟩
  | .local _ .vmem, ⟨3, _⟩ => ⟨S1x4096, .f32⟩
  | .local _ .vmem, ⟨4, _⟩ => ⟨S1024x1024, .f32⟩
  | .local _ .vmem, ⟨5, _⟩ => ⟨S1024x1024, .f32⟩
  | .local _ .vmem, ⟨6, _⟩ => ⟨S1024x512, .bf16⟩
  | .local _ .vmem, ⟨7, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_4 : Index := 0#32
  ![v7.toNat, 0]
def k0_off2 (i : grid0.Coords) : Fin 2 → Nat :=
  let c0_5 : Index := 0#32
  let arg1 : BitVec 32 := BitVec.ofNat 32 (i 1).val
  let c1024_i32 : BitVec 32 := 1024#32
  let v5 : BitVec 32 := Scalar.muli arg1 c1024_i32
  let v6 : BitVec 32 := v5
  let v10 : Index := Scalar.indexCast v6
  ![0, v10.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  reducesTo_S4096x512_S4096_d1 : S4096x512.ReducesTo [1] S4096
  h_S_ : 0 < S_.numel
  bcast_S4096_S1x4096_1 : S4096.BroadcastsInDim S1x4096 (![1] : Fin 1 → Fin S1x4096.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S4096x512.size a
  k0_off2_inb : ∀ i : grid0.Coords, ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S4096x512 : Shape := ⟨2, ![4096, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x512_S4096x512_S16384x4096_1_1_0_0_n_n_wf : DotDims.WF S16384x512 S4096x512 S16384x4096 [1] [1] [0] [0] [] []

variable [Facts₀]

def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf

class Facts : Prop extends Facts₀ where

variable [Facts]
-- ==== Proof.Pieces.lean ====
/-
  What one run of the kernel body leaves behind, as values.

  At a first centre tile (the branch taken) the body stores the x block, recast, into the first cache, the column of
  squared lengths of its rows into the second cache, reads both back, and stores the output block computed from what
  it read back, the slice of the centres' block and the slice of the centres' squared lengths that the tile names.
  At a later centre tile (the branch not taken) the two caches are left as found and the output block is computed
  from them and the same two slices.
-/
import proofs.«148469_j65481071400015_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The rows of the centres' block that tile `i` names. -/
abbrev ctile (i : grid0.Coords) (x1 : Vec F S4096x512 .bf16) : Vec F S1024x512 .bf16 :=
  View.ld x1 (Rect.unit (s := S4096x512) (k0_off1 i) S1024x512.size (k0_off1_inb i))

/-- The entries of the centres' squared lengths that tile `i` names. -/
abbrev csqtile (i : grid0.Coords) (x2 : Vec F S1x4096 .f32) : Vec F S1x1024 .f32 :=
  View.ld x2 (Rect.unit (s := S1x4096) (k0_off2 i) S1x1024.size (k0_off2_inb i))

/-- First centre tile: the first cache ends at the recast x block. -/
theorem cacheA_0 (c : Dev nD) (i : grid0.Coords) (arg2 : Memref sig .tc .vmem S1024x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S1024x1024 .f32) (harg5 : arg5.IsWhole) (arg6 : Memref sig .tc .vmem S1024x512 .bf16) (harg6 : arg6.IsWhole) (arg7 : Memref sig .tc .vmem S1024x1 .f32) (harg7 : arg7.IsWhole) (hc0 : cond0_0 i)
    (x0 : Vec F S1024x512 .f32) (x1 : Vec F S4096x512 .bf16) (x2 : Vec F S1x4096 .f32) :
    sout0_A_0 c i arg2 harg2 arg3 harg3 arg4 harg4 arg5 harg5 arg6 harg6 arg7 harg7 hc0 x0 x1 x2 = k0_pay1 x0 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg2.read_unread, View.ld_unit_zero (S := S1024x512) hz]

/-- First centre tile: the second cache ends at the squared lengths of the x block's rows. -/
theorem cacheA_1 (c : Dev nD) (i : grid0.Coords) (arg2 : Memref sig .tc .vmem S1024x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S1024x1024 .f32) (harg5 : arg5.IsWhole) (arg6 : Memref sig .tc .vmem S1024x512 .bf16) (harg6 : arg6.IsWhole) (arg7 : Memref sig .tc .vmem S1024x1 .f32) (harg7 : arg7.IsWhole) (hc0 : cond0_0 i)
    (x0 : Vec F S1024x512 .f32) (x1 : Vec F S4096x512 .bf16) (x2 : Vec F S1x4096 .f32) :
    sout0_A_1 c i arg2 harg2 arg3 harg3 arg4 harg4 arg5 harg5 arg6 harg6 arg7 harg7 hc0 x0 x1 x2 = k0_pay2 x0 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg2.read_unread, View.ld_unit_zero (S := S1024x512) hz]

/-- First centre tile: the output block, from the two caches just filled. -/
theorem outA (c : Dev nD) (i : grid0.Coords) (arg2 : Memref sig .tc .vmem S1024x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S1024x1024 .f32) (harg5 : arg5.IsWhole) (arg6 : Memref sig .tc .vmem S1024x512 .bf16) (harg6 : arg6.IsWhole) (arg7 : Memref sig .tc .vmem S1024x1 .f32) (harg7 : arg7.IsWhole) (hc0 : cond0_0 i)
    (x0 : Vec F S1024x512 .f32) (x1 : Vec F S4096x512 .bf16) (x2 : Vec F S1x4096 .f32) :
    out0_A_3 c i arg2 harg2 arg3 harg3 arg4 harg4 arg5 harg5 arg6 harg6 arg7 harg7 hc0 x0 x1 x2 = k0_pay3 (k0_pay1 x0) (k0_pay2 x0) (ctile i x1) (csqtile i x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz, View.readCov_unit_zero (S := S1024x512) _ hz, View.readCov_unit_zero (S := S1024x1) _ hz]
  simp only [View.readAt_eq_ld, harg2.read_unread, harg3.read_unread, harg4.read_unread,
    View.ld_unit_zero (S := S1024x512) hz]
  rfl

/-- Later centre tile: the output block, from the two caches as found. -/
theorem outB (c : Dev nD) (i : grid0.Coords) (arg2 : Memref sig .tc .vmem S1024x512 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S1024x1024 .f32) (harg5 : arg5.IsWhole) (arg6 : Memref sig .tc .vmem S1024x512 .bf16) (harg6 : arg6.IsWhole) (arg7 : Memref sig .tc .vmem S1024x1 .f32) (harg7 : arg7.IsWhole) (hc0 : ¬cond0_0 i)
    (x0 : Vec F S1024x512 .f32) (x1 : Vec F S4096x512 .bf16) (x2 : Vec F S1x4096 .f32)
    (xs0 : Vec F S1024x512 .bf16) (xs1 : Vec F S1024x1 .f32) :
    out0_B_3 c i arg2 harg2 arg3 harg3 arg4 harg4 arg5 harg5 arg6 harg6 arg7 harg7 hc0 x0 x1 x2 xs0 xs1 = k0_pay3 xs0 xs1 (ctile i x1) (csqtile i x2) := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  rw [View.canon_unit_zero hz]
  simp only [View.readAt_eq_ld, harg3.read_unread, harg4.read_unread, harg6.read_unread, harg7.read_unread,
    View.ld_unit_zero (S := S1024x512) hz, View.ld_unit_zero (S := S1024x1) hz]

end Cert.KernelIdeal.Pieces

end
-- ==== Proof.Spec.lean ====
/-
  The Gaussian kernel matrix of two point sets.  For points x_r (the rows of X, 16384 of them) and centres c_q (the
  rows of C, 4096 of them), all in dimension 512, the entry (r, q) is

      exp (-1 * max ((|x_r|^2 + |c_q|^2) - 2 * <x_r, c_q>, 0)),

  where |.|^2 is the sum of the squares of the coordinates and <.,.> the sum of the products of the coordinates, all
  read over the extended reals.  The three float constants are kept as the words the two programs spell them with.
-/
import Idealize.ShloMosaic.PureOps.Ideal
import Idealize.ShloMosaic.Lib.ValueIdx

noncomputable section

open scoped BigOperators

namespace Cert.Rbf

open Idealize.ShloMosaic Idealize.ShloMosaic.ValueIdx

/-- The squared length of row `r` of an array with 512 columns. -/
def sqnorm {n : ℕ} (A : (⟨2, ![n, 512]⟩ : Shape).Idx → EReal) (r : Fin n) : EReal :=
  ∑ k : Fin 512, A (ix2 r k) * A (ix2 r k)

/-- The inner product of row `r` of `X` with row `q` of `C`. -/
def inner {n m : ℕ} (X : (⟨2, ![n, 512]⟩ : Shape).Idx → EReal) (C : (⟨2, ![m, 512]⟩ : Shape).Idx → EReal)
    (r : Fin n) (q : Fin m) : EReal :=
  ∑ k : Fin 512, X (ix2 r k) * C (ix2 q k)

/-- One entry from the two squared lengths and the inner product. -/
def entry (a b w : EReal) : EReal :=
  Ideal.exp (Ideal.ofBits .f32 0xBF800000#32
    * max ((a + b) - Ideal.ofBits .f32 0x40000000#32 * w) (Ideal.ofBits .f32 0x00000000#32))

/-- The whole matrix. -/
def rbf (X : (⟨2, ![16384, 512]⟩ : Shape).Idx → EReal) (C : (⟨2, ![4096, 512]⟩ : Shape).Idx → EReal) :
    (⟨2, ![16384, 4096]⟩ : Shape).Idx → EReal :=
  fun i => entry (sqnorm X (i 0)) (sqnorm C (i 1)) (inner X C (i 0) (i 1))

end Cert.Rbf

end
-- ==== Proof.Blocks.lean ====
/-
  Where the blocks of one grid point sit in the arrays.

  The 64 grid points run through 16 tiles of x rows (the slow coordinate, point / 4) and, inside each, 4 tiles of
  centres (the fast coordinate, point % 4); a tile has 1024 rows.  At point t the x block is rows
  1024 * (t / 4) .. of x; the block of centres and the block of their squared lengths are the whole arrays, of which the
  body takes rows (entries) 1024 * (t % 4) ..; the output block is the tile (t / 4, t % 4) of the result.

  The two arrays the host prepares before the launch: the recast copy of the centres, which over the extended reals
  is the array of centres itself, and the row of their squared lengths, each a host sum started from the zero word.
-/
import proofs.«148469_j65481071400015_2_alg».proof.Proof.Gen.KernelIdeal.Frame
import proofs.«148469_j65481071400015_2_alg».proof.Proof.Pieces
import proofs.«148469_j65481071400015_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

/-- Row `p` of the x tile of point `n`, as a row of x. -/
def xrow (n : ℕ) (h : n < 64) (p : Fin 1024) : Fin 16384 :=
  ⟨1024 * (n / 4) + p.val, by have := p.isLt; omega⟩

/-- Row `q` of the centre tile of point `n`, as a row of the centres. -/
def ccol (n : ℕ) (h : n < 64) (q : Fin 1024) : Fin 4096 :=
  ⟨1024 * (n % 4) + q.val, by have := q.isLt; omega⟩

theorem lt64 (t : Fin cfg0.N) : t.val < 64 := lt_of_lt_of_eq t.isLt N_0

/-- The printed index maps and slice offsets, decided over the 64 points. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = t.val % 4
    ∧ k0_off1 (grid0.coords t) (0 : Fin 2) = 1024 * (t.val % 4) ∧ k0_off1 (grid0.coords t) (1 : Fin 2) = 0
    ∧ k0_off2 (grid0.coords t) (0 : Fin 2) = 0 ∧ k0_off2 (grid0.coords t) (1 : Fin 2) = 1024 * (t.val % 4) :=
  (by decide +kernel : ∀ t : Fin grid0.N, _)

section AnyValues

variable {F : FTy → Type} [FloatOps F]
variable (m : (ℓ : Loc nD τ sig) → Buf (Elt F) ℓ)

/-- The x block at point `t`. -/
theorem xblock_apply (c : Dev nD) (t : Fin cfg0.N) (p : Fin 1024) (k : Fin 512) :
    (iblk m c 0 t : Vec F S1024x512 .f32) (ix2 p k) = V m c main_arg0 (ix2 (xrow t.val (lt64 t) p) k) := by
  obtain ⟨e0, e1, -⟩ := idx_facts t
  unfold iblk
  rw [View.read_apply]
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = 1024 * (t.val / 4) + p.val; rw [e0]; omega
  | ⟨1, _⟩ => show win0_0.index t (1 : Fin 2) * 512 + 1 * k.val = k.val; rw [e1]; omega

/-- The block of centres at any point is the whole recast array of centres. -/
theorem cblock_apply (c : Dev nD) (t : Fin cfg0.N) (r : Fin 4096) (k : Fin 512) :
    (iblk m c 1 t : Vec F S4096x512 .bf16) (ix2 r k) = V m c main_v0 (ix2 r k) := by
  obtain ⟨-, -, e0, e1, -⟩ := idx_facts t
  unfold iblk
  rw [View.read_apply]
  show V m c main_v0 (((cfg0.win 1).blk t).view.emb (ix2 r k)) = _
  refine congrArg (V m c main_v0) (funext fun a => Fin.ext ?_)
  match a with
  | ⟨0, _⟩ => show win0_1.index t (0 : Fin 2) * 4096 + 1 * r.val = r.val; rw [e0]; omega
  | ⟨1, _⟩ => show win0_1.index t (1 : Fin 2) * 512 + 1 * k.val = k.val; rw [e1]; omega

/-- The block of squared lengths at any point is the whole row the host prepared. -/
theorem csqblock_apply (c : Dev nD) (t : Fin cfg0.N) (r : Fin 4096) :
    (iblk m c 2 t : Vec F S1x4096 .f32) (ix2 (0 : Fin 1) r) = V m c main_v3 (ix2 (0 : Fin 1) r) := by
  obtain ⟨-, -, -, -, e0, e1, -⟩ := idx_facts t
  unfold iblk
  rw [View.read_apply]
  show V m c main_v3 (((cfg0.win 2).blk t).view.emb (ix2 (0 : Fin 1) r)) = _
  refine congrArg (V m c main_v3) (funext fun a => Fin.ext ?_)
  match a with
  | ⟨0, _⟩ => show win0_2.index t (0 : Fin 2) * 1 + 1 * 0 = 0; rw [e0]
  | ⟨1, _⟩ => show win0_2.index t (1 : Fin 2) * 4096 + 1 * r.val = r.val; rw [e1]; omega

/-- The rows of centres the body slices out at point `t`. -/
theorem ctile_apply (t : Fin cfg0.N) (x1 : Vec F S4096x512 .bf16) (q : Fin 1024) (k : Fin 512) :
    Pieces.ctile (grid0.coords t) x1 (ix2 q k) = x1 (ix2 (ccol t.val (lt64 t) q) k) := by
  obtain ⟨-, -, -, -, -, -, -, -, e0, e1, -⟩ := idx_facts t
  show x1 ((Rect.unit (s := S4096x512) (k0_off1 (grid0.coords t)) S1024x512.size (k0_off1_inb (grid0.coords t))).idx (ix2 q k)) = _
  refine congrArg x1 (funext fun a => Fin.ext ?_)
  match a with
  | ⟨0, _⟩ => show k0_off1 (grid0.coords t) (0 : Fin 2) + 1 * q.val = 1024 * (t.val % 4) + q.val; rw [e0]; omega
  | ⟨1, _⟩ => show k0_off1 (grid0.coords t) (1 : Fin 2) + 1 * k.val = k.val; rw [e1]; omega

/-- The squared lengths the body slices out at point `t`. -/
theorem csqtile_apply (t : Fin cfg0.N) (x2 : Vec F S1x4096 .f32) (q : Fin 1024) :
    Pieces.csqtile (grid0.coords t) x2 (ix2 (0 : Fin 1) q) = x2 (ix2 (0 : Fin 1) (ccol t.val (lt64 t) q)) := by
  obtain ⟨-, -, -, -, -, -, -, -, -, -, e0, e1⟩ := idx_facts t
  show x2 ((Rect.unit (s := S1x4096) (k0_off2 (grid0.coords t)) S1x1024.size (k0_off2_inb (grid0.coords t))).idx (ix2 (0 : Fin 1) q)) = _
  refine congrArg x2 (funext fun a => Fin.ext ?_)
  match a with
  | ⟨0, _⟩ => show k0_off2 (grid0.coords t) (0 : Fin 2) + 1 * 0 = 0; rw [e0]
  | ⟨1, _⟩ => show k0_off2 (grid0.coords t) (1 : Fin 2) + 1 * q.val = 1024 * (t.val % 4) + q.val; rw [e1]; omega

/-- The recast copy of the centres, as the host computes it before the launch. -/
theorem V_recast (c : Dev nD) :
    (V m c main_v0 : S4096x512.Idx → Elt F .bf16) = truncf .bf16 (m ((c : Thread nD τ).loc main_arg1)) bitsLt_bf16_f32 := by
  dsimp only [Gen.V, Gen.hostOps0]; after_results

/-- The row of squared lengths of the centres, as the host computes it before the launch. -/
theorem V_csq (c : Dev nD) :
    (V m c main_v3 : S1x4096.Idx → Elt F .f32)
      = broadcastInDim S1x4096 ![1] bcast_S4096_S1x4096_1
          (Host.reduceAdd (mulf (m ((c : Thread nD τ).loc main_arg1)) (m ((c : Thread nD τ).loc main_arg1)))
            (constant S_ .f32 0x00000000#32) reducesTo_S4096x512_S4096_d1 h_S_) := by
  dsimp only [Gen.V, Gen.hostOps0]; after_results

end AnyValues

section ExtendedReals

variable (m : (ℓ : Loc nD τ sig) → Buf (Elt Ideal) ℓ)

/-- Over the extended reals the recast copy of the centres is the array of centres. -/
theorem recast_apply (c : Dev nD) (r : Fin 4096) (k : Fin 512) :
    V m c main_v0 (ix2 r k) = m ((c : Thread nD τ).loc main_arg1) (ix2 r k) := by
  rw [V_recast m c]; rfl

/-- The prepared row holds, at `r`, the squared length of centre `r`. -/
theorem csq_apply (c : Dev nD) (r : Fin 4096) :
    V m c main_v3 (ix2 (0 : Fin 1) r) = Cert.Rbf.sqnorm (m ((c : Thread nD τ).loc main_arg1)) r := by
  rw [V_csq m c]
  refine (broadcastInDim_apply _ bcast_S4096_S1x4096_1 _ (ix2 (0 : Fin 1) r) (ix1 r) (fun a => match a with
    | ⟨0, _⟩ => by show r.val = if (4096 : Nat) = 1 then 0 else r.val; rw [if_neg (by decide)])).trans ?_
  simp only [Host.reduceAdd, Ideal.hostReduceAdd_def]
  rw [Ideal.hostReduceAdd_single reducesTo_S4096x512_S4096_d1 (by decide)]
  show Ideal.ofBits .f32 0x00000000#32 + _ = _
  rw [Ideal.ofBits_zero_f32, zero_add]
  unfold Cert.Rbf.sqnorm
  refine Finset.sum_congr rfl fun k _ => ?_
  have e : (Shape.Reduces.lift (s := S4096x512) (t := S4096) (a := (1 : Fin 2)) (by decide) (ix1 r) k) = ix2 r k :=
    funext fun a => Fin.ext (by match a with | ⟨0, _⟩ => rfl | ⟨1, _⟩ => rfl)
  rw [e]; rfl

end ExtendedReals

end Cert.KernelIdeal.Blocks

end
-- ==== Proof.LibRowOps.lean ====
/-
  Row-wise layout operations of a two-axis array, read at an entry; generic in the number of rows, so that one statement
  serves every tiling of a row-wise computation.

    * a column [a, 1] broadcast across b columns reads, at (p, c), the column's entry at row p;
    * a single entry [1, 1] broadcast down a rows reads that entry;
    * a vector [a] recast as a column [a, 1] reads, at (p, 0), the vector's entry p;
    * the sum of an [a, b] array along its second axis reads, at p, the sum over the b entries of row p.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type}

/-- A column broadcast across the columns. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast down the rows. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

/-- A vector recast as a column. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- The sum along the second axis, at row `p`, over the extended reals. -/
theorem lane_sum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  rw [Ideal.multiReduction_add_single]
  refine Finset.sum_congr rfl fun k _ => congrArg src ?_
  funext c
  apply Fin.ext
  match c with
  | ⟨0, _⟩ => rfl
  | ⟨1, _⟩ => rfl

end Idealize.ShloMosaic.RowOps

end
-- ==== Proof.LibMatmulPlain.lean ====
/-
  A plain matrix product read at an entry.  For the contraction "rows of the left operand against columns of the
  right one" (`DotDims.plain M K N`: left [M, K], right [K, N], result [M, N], one contracted axis, no batch axis), the
  product into a zero accumulator, over the extended reals, at the entry `(i, j)` is `∑ k, lhs (i, k) * rhs (k, j)`
  — the contraction's one-coordinate index re-indexed by that coordinate.
-/
import Idealize.ShloMosaic.PureOps.Ideal.Laws
import Idealize.ShloMosaic.Lib.ValueIdx

noncomputable section

open scoped BigOperators

namespace Idealize.ShloMosaic

open Idealize.ShloMosaic.ValueIdx

/-- The left operand's index at result entry `(i, j)` and contraction position `q` is `(i, q)`. -/
theorem DotDims.plain_lhsIdx (M K N : ℕ) (i : Fin M) (j : Fin N) (q : (DotDims.plain M K N).contr.Idx) (k : Fin K)
    (hk : (q ⟨0, Nat.one_pos⟩).val = k.val) :
    (DotDims.plain M K N).lhsIdx (ix2 i j) q = ix2 i k := by
  funext a
  apply Fin.ext
  match a with
  | ⟨0, _⟩ => simp [DotDims.lhsIdx, DotDims.plain]; rfl
  | ⟨1, _⟩ =>
    have h := (DotDims.plain M K N).lhsIdx_val_of_single (cl := (1 : Fin 2)) rfl (ix2 i j) q
    exact h.trans hk

/-- The right operand's index there is `(q, j)`. -/
theorem DotDims.plain_rhsIdx (M K N : ℕ) (i : Fin M) (j : Fin N) (q : (DotDims.plain M K N).contr.Idx) (k : Fin K)
    (hk : (q ⟨0, Nat.one_pos⟩).val = k.val) :
    (DotDims.plain M K N).rhsIdx (ix2 i j) q = ix2 k j := by
  funext a
  apply Fin.ext
  match a with
  | ⟨0, _⟩ =>
    have h := (DotDims.plain M K N).rhsIdx_val_of_single (cr := (0 : Fin 2)) rfl (ix2 i j) q
    exact h.trans hk
  | ⟨1, _⟩ => simp [DotDims.rhsIdx, DotDims.plain]; rfl

/-- The product into the zero accumulator at `(i, j)`. -/
theorem Ideal.matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply]
  rw [← Equiv.sum_comp (contrEquiv1 (DotDims.plain M K N) K rfl rfl).symm]
  refine Finset.sum_congr rfl fun k _ => ?_
  have hk := contrEquiv1_symm_val (DotDims.plain M K N) K rfl rfl k
  rw [DotDims.plain_lhsIdx M K N i j _ k hk, DotDims.plain_rhsIdx M K N i j _ k hk]

end Idealize.ShloMosaic

end
-- ==== Proof.Payload.lean ====
/-
  The arithmetic of the kernel body, read one entry at a time over the extended reals.

    * The cached copy of the x block is the x block itself: the change of float format is the identity.
    * The cached column of squared lengths holds, at row p, the sum of the squares of row p of the x block.
    * The output block holds, at (p, q), the Gaussian kernel entry built from the cached squared length of row p, the
      squared length handed in for column q, and the inner product of row p of the cached x block with row q of the
      block of centres: the matrix product against the transposed block of centres, into a zero accumulator, is that
      inner product.
-/
import proofs.«148469_j65481071400015_2_alg».proof.Proof.Gen.KernelIdeal.Skeleton
import proofs.«148469_j65481071400015_2_alg».proof.Proof.Spec
import proofs.«148469_j65481071400015_2_alg».proof.Proof.LibRowOps
import proofs.«148469_j65481071400015_2_alg».proof.Proof.LibMatmulPlain
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The cached copy of the x block. -/
theorem pay1_eq (v27 : Vec Ideal S1024x512 .f32) : k0_pay1 (F := Ideal) v27 = v27 := by
  unfold k0_pay1
  exact shapeCast_self _ _

/-- The cached squared length of row `p`. -/
theorem pay2_apply (v27 : Vec Ideal S1024x512 .f32) (p : Fin 1024) :
    k0_pay2 (F := Ideal) v27 (ix2 p (0 : Fin 1)) = ∑ k : Fin 512, v27 (ix2 p k) * v27 (ix2 p k) := by
  unfold k0_pay2
  refine (congrFun (shapeCast_self _ _) _).trans ?_
  refine (RowOps.shapeCast_a_a1_apply _ _ p).trans ?_
  exact RowOps.lane_sum_apply (mulf v27 v27) _ _ _ _ p

/-- The inner products: the matrix product of the cached x block with the transposed block of centres. -/
theorem cross_apply (v3 v8 : FVec Ideal S1024x512 .bf16) (p q : Fin 1024) :
    matmul dot_S1024x512_S512x1024_S1024x1024_1_0_0_1_n_n none v3
        (transpose S512x1024 [1, 0] (shapeCast S1024x512 v8 shapeCasts_S1024x512_S1024x512) transposes_S1024x512_p1_0_S512x1024)
        (constant (F := Ideal) S1024x1024 .f32 0x00000000#32) (ix2 p q)
      = ∑ k : Fin 512, v3 (ix2 p k) * v8 (ix2 q k) := by
  refine (Ideal.matmul_plain_zero_apply 1024 512 1024 none v3 _ p q).trans ?_
  refine Finset.sum_congr rfl fun k _ => congrArg (v3 (ix2 p k) * ·) ?_
  refine (transpose_ix2_apply _ transposes_S1024x512_p1_0_S512x1024 k q).trans ?_
  exact congrFun (shapeCast_self v8 _) _

/-- One entry of the output block. -/
theorem pay3_apply (v3 : Vec Ideal S1024x512 .bf16) (v4 : Vec Ideal S1024x1 .f32) (v8 : Vec Ideal S1024x512 .bf16)
    (v11 : Vec Ideal S1x1024 .f32) (p q : Fin 1024) :
    k0_pay3 (F := Ideal) v3 v4 v8 v11 (ix2 p q)
      = Cert.Rbf.entry (v4 (ix2 p (0 : Fin 1))) (v11 (ix2 (0 : Fin 1) q)) (∑ k : Fin 512, v3 (ix2 p k) * v8 (ix2 q k)) := by
  have h15 : broadcastTo S1024x1024 v4 broadcasts_S1024x1_S1024x1024 (ix2 p q) = v4 (ix2 p (0 : Fin 1)) :=
    RowOps.broadcastTo_a1_ab_apply v4 _ p q
  have h16 : broadcastTo S1024x1024 (shapeCast S1x1024 v11 shapeCasts_S1x1024_S1x1024) broadcasts_S1x1024_S1024x1024 (ix2 p q)
      = v11 (ix2 (0 : Fin 1) q) :=
    (broadcastTo_1b_ab_apply _ _ p q).trans (congrFun (shapeCast_self v11 _) _)
  have hmm := cross_apply v3 v8 p q
  unfold k0_pay3 Cert.Rbf.entry
  show Ideal.exp (Ideal.ofBits .f32 0xBF800000#32
      * max ((broadcastTo S1024x1024 v4 broadcasts_S1024x1_S1024x1024 (ix2 p q)
          + broadcastTo S1024x1024 (shapeCast S1x1024 v11 shapeCasts_S1x1024_S1x1024) broadcasts_S1x1024_S1024x1024 (ix2 p q))
        - Ideal.ofBits .f32 0x40000000#32
          * matmul dot_S1024x512_S512x1024_S1024x1024_1_0_0_1_n_n none (v3 : FVec Ideal S1024x512 .bf16)
              (transpose S512x1024 [1, 0] (shapeCast S1024x512 (v8 : FVec Ideal S1024x512 .bf16) shapeCasts_S1024x512_S1024x512) transposes_S1024x512_p1_0_S512x1024)
              (constant (F := Ideal) S1024x1024 .f32 0x00000000#32) (ix2 p q))
        (Ideal.ofBits .f32 0x00000000#32)) = _
  rw [h15, h16, hmm]

end Cert.KernelIdeal.Pay

end
-- ==== Proof.Caches.lean ====
/-
  The two caches across the grid, and the output block of every point.

  The caches are filled at the first centre tile of each tile of x rows (points 0, 4, 8, …) and kept for the three points
  that follow, which belong to the same tile of x rows.  So after every point t the first cache holds rows
  1024 * (t / 4) .. of x and the second the squared lengths of those rows: at a filling point by what the body stores,
  at a later point because the point before it has the same t / 4.  The output block of point t is computed from the
  caches as they stand after the point, whichever branch ran; hence its entry (p, q) is the Gaussian kernel entry of
  x row 1024 * (t / 4) + p and centre 1024 * (t % 4) + q.
-/
import proofs.«148469_j65481071400015_2_alg».proof.Proof.Blocks
import proofs.«148469_j65481071400015_2_alg».proof.Proof.Payload

noncomputable section

open scoped BigOperators

namespace Cert.KernelIdeal.Caches

open Cert.KernelIdeal Cert.KernelIdeal.Gen Idealize.ShloMosaic Idealize.ShloMosaic.TcCoe Idealize.SL.Sem
open Idealize.ShloMosaic.ValueIdx Cert.KernelIdeal.Blocks

section AnyValues

variable {F : FTy → Type} [FloatOps F]
variable (m : (ℓ : Loc nD τ sig) → Buf (Elt F) ℓ)

/-- The output block of a point is computed from the two caches as they stand after the point. -/
theorem out_eq (c : Dev nD) (t : Fin cfg0.N) :
    (outsAt0 m c t.val t.isLt).1
      = k0_pay3 (outsAt0 m c t.val t.isLt).2.1 (outsAt0 m c t.val t.isLt).2.2
          (Pieces.ctile (grid0.coords t) (iblk m c 1 t)) (Pieces.csqtile (grid0.coords t) (iblk m c 2 t)) := by
  by_cases h0 : t.val % 4 = 0
  · rw [outsAt0_A m c t h0]
    dsimp only
    rw [Pieces.cacheA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t),
      Pieces.cacheA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)]
    exact Pieces.outA c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)
  · rw [outsAt0_B m c t h0]
    dsimp only
    exact Pieces.outB c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.1 (outsAt0 m c (t.val - 1) (Nat.lt_of_le_of_lt (Nat.sub_le _ _) t.isLt)).2.2

end AnyValues

section ExtendedReals

variable (m : (ℓ : Loc nD τ sig) → Buf (Elt Ideal) ℓ)

/-- The two caches hold the x rows of point `n`'s tile and their squared lengths. -/
def Holds (c : Dev nD) (n : ℕ) (h : n < cfg0.N) (S0 : Vec Ideal S1024x512 .bf16) (S1 : Vec Ideal S1024x1 .f32) : Prop :=
  (∀ (p : Fin 1024) (k : Fin 512),
      S0 (ix2 p k) = m ((c : Thread nD τ).loc main_arg0) (ix2 (xrow n (lt_of_lt_of_eq h N_0) p) k))
  ∧ ∀ p : Fin 1024,
      S1 (ix2 p (0 : Fin 1)) = Cert.Rbf.sqnorm (m ((c : Thread nD τ).loc main_arg0)) (xrow n (lt_of_lt_of_eq h N_0) p)

/-- At a filling point the body stores exactly that. -/
theorem holds_fill (c : Dev nD) (t : Fin cfg0.N) (h0 : t.val % 4 = 0) :
    Holds m c t.val t.isLt (outsAt0 m c t.val t.isLt).2.1 (outsAt0 m c t.val t.isLt).2.2 := by
  have hx : ∀ (p : Fin 1024) (k : Fin 512),
      (iblk m c 0 t : Vec Ideal S1024x512 .f32) (ix2 p k)
        = m ((c : Thread nD τ).loc main_arg0) (ix2 (xrow t.val (lt64 t) p) k) := fun p k =>
    (xblock_apply m c t p k).trans (congrFun (V_main_arg0 m c) _)
  rw [outsAt0_A m c t h0]
  dsimp only
  rw [Pieces.cacheA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t),
    Pieces.cacheA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)]
  refine ⟨fun p k => ?_, fun p => ?_⟩
  · exact (congrFun (Pay.pay1_eq (iblk m c 0 t)) (ix2 p k)).trans (hx p k)
  · refine (Pay.pay2_apply (iblk m c 0 t) p).trans ?_
    unfold Cert.Rbf.sqnorm
    exact Finset.sum_congr rfl fun k _ => by rw [hx p k]

/-- After every point. -/
theorem holds (c : Dev nD) : ∀ (n : ℕ) (h : n < cfg0.N),
    Holds m c n h (outsAt0 m c n h).2.1 (outsAt0 m c n h).2.2
  | 0, h => holds_fill m c ⟨0, h⟩ rfl
  | n + 1, h => by
    by_cases h0 : (n + 1) % 4 = 0
    · exact holds_fill m c ⟨n + 1, h⟩ h0
    · have ih := holds c n (Nat.lt_of_succ_lt h)
      have hN : n + 1 < 64 := lt_of_lt_of_eq h N_0
      have hx : ∀ p : Fin 1024, xrow (n + 1) hN p = xrow n (Nat.lt_of_succ_lt hN) p := fun p =>
        Fin.ext (by show 1024 * ((n + 1) / 4) + p.val = 1024 * (n / 4) + p.val; omega)
      rw [outsAt0_B m c ⟨n + 1, h⟩ h0]
      dsimp only
      show Holds m c (n + 1) h (outsAt0 m c n (Nat.lt_of_succ_lt h)).2.1 (outsAt0 m c n (Nat.lt_of_succ_lt h)).2.2
      refine ⟨fun p k => ?_, fun p => ?_⟩
      · rw [hx p]; exact ih.1 p k
      · rw [hx p]; exact ih.2 p

/-- Entry (p, q) of the output block of point `t`. -/
theorem out_apply (c : Dev nD) (t : Fin cfg0.N) (p q : Fin 1024) :
    (outsAt0 m c t.val t.isLt).1 (ix2 p q)
      = Cert.Rbf.rbf (m ((c : Thread nD τ).loc main_arg0)) (m ((c : Thread nD τ).loc main_arg1))
          (ix2 (xrow t.val (lt64 t) p) (ccol t.val (lt64 t) q)) := by
  obtain ⟨hS0, hS1⟩ := holds m c t.val t.isLt
  have hc : ∀ k : Fin 512,
      Pieces.ctile (grid0.coords t) (iblk m c 1 t) (ix2 q k)
        = m ((c : Thread nD τ).loc main_arg1) (ix2 (ccol t.val (lt64 t) q) k) := fun k =>
    (ctile_apply t (iblk m c 1 t) q k).trans ((cblock_apply m c t _ k).trans (recast_apply m c _ k))
  have hq : Pieces.csqtile (grid0.coords t) (iblk m c 2 t) (ix2 (0 : Fin 1) q)
      = Cert.Rbf.sqnorm (m ((c : Thread nD τ).loc main_arg1)) (ccol t.val (lt64 t) q) :=
    (csqtile_apply t (iblk m c 2 t) q).trans ((csqblock_apply m c t _).trans (csq_apply m c _))
  rw [out_eq m c t]
  refine (Pay.pay3_apply (outsAt0 m c t.val t.isLt).2.1 (outsAt0 m c t.val t.isLt).2.2
    (Pieces.ctile (grid0.coords t) (iblk m c 1 t)) (Pieces.csqtile (grid0.coords t) (iblk m c 2 t)) p q).trans ?_
  rw [hS1 p, hq]
  show _ = Cert.Rbf.entry _ _ (Cert.Rbf.inner _ _ (xrow t.val (lt64 t) p) (ccol t.val (lt64 t) q))
  unfold Cert.Rbf.inner
  exact congrArg _ (Finset.sum_congr rfl fun k _ => by rw [hS0 p k, hc k])

end ExtendedReals

end Cert.KernelIdeal.Caches

end
-- ==== Proof.Whole.lean ====
/-
  The result array after the whole run.

  Every point writes back its output block, and the block of point t is the tile (t / 4, t % 4) of the result: rows
  1024 * (t / 4) .., columns 1024 * (t % 4) ...  Entry (p, q) of that block is the Gaussian kernel entry of exactly the
  x row and the centre the tile places there, so each written block is the restriction of ONE matrix, the Gaussian
  kernel matrix of the two arguments.  The 64 tiles cover the 16384 x 4096 result (entry (r, s) lies in the tile of point
  4 * (r / 1024) + s / 1024), so the result array ends holding that matrix.
-/
import proofs.«148469_j65481071400015_2_alg».proof.Proof.Caches
import proofs.«148469_j65481071400015_2_alg».proof.Proof.Gen.KernelIdeal.Value

noncomputable section

namespace Cert.KernelIdeal.Whole

open Cert.KernelIdeal Cert.KernelIdeal.Gen Idealize.ShloMosaic Idealize.ShloMosaic.TcCoe Idealize.SL.Sem
open Idealize.ShloMosaic.ValueIdx Cert.KernelIdeal.Blocks
open Idealize.ShloMosaic.Pipeline (Dat)

variable (m : (ℓ : Loc nD τ sig) → Buf (Elt Ideal) ℓ) (ρ : Dev nD → PrngReg)

/-- The Gaussian kernel matrix of the two argument arrays as launched. -/
abbrev gauss (c : Dev nD) : S16384x4096.Idx → Elt Ideal .f32 :=
  Cert.Rbf.rbf (m ((c : Thread nD τ).loc main_arg0)) (m ((c : Thread nD τ).loc main_arg1))

/-- An entry of the output block of point `t` is the matrix's entry at the place the block's tile gives it. -/
theorem block_entry (c : Dev nD) (t : Fin cfg0.N) (j : S1024x1024.Idx) :
    (outsAt0 m c t.val t.isLt).1 j = gauss m c (((cfg0.win 3).blk t).view.emb j) := by
  obtain ⟨-, -, -, -, -, -, e0, e1, -⟩ := idx_facts t
  obtain ⟨p, q, rfl⟩ : ∃ (p q : Fin 1024), j = ix2 p q := ⟨j 0, j 1, eq_ix2 j⟩
  rw [Caches.out_apply m c t p q]
  refine congrArg (gauss m c) (funext fun a => Fin.ext ?_)
  match a with
  | ⟨0, _⟩ => show 1024 * (t.val / 4) + p.val = win0_3.index t (0 : Fin 2) * 1024 + 1 * p.val; rw [e0]; omega
  | ⟨1, _⟩ => show 1024 * (t.val % 4) + q.val = win0_3.index t (1 : Fin 2) * 1024 + 1 * q.val; rw [e1]; omega

/-- What point `t` writes back is block `t` of the matrix. -/
theorem flushed_eq (c : Dev nD) (t : Fin cfg0.N) :
    (dats m 0 c).flushed 3 t = ((cfg0.win 3).blk t).view.read (Elt Ideal) (gauss m c) := by
  rw [Value.flushed3]
  funext j
  exact block_entry m c t j

/-- An index of the result is in point `t`'s block iff each coordinate is in the tile's range. -/
theorem mem_blk (t : Fin cfg0.N) (i : S16384x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every index of the result is in some point's block. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 64 := N_0
  have hlt : 4 * ((i 0).val / 1024) + (i 1).val / 1024 < cfg0.N := by rw [hN]; omega
  obtain ⟨t, ht⟩ : ∃ t : Fin cfg0.N, t.val = 4 * ((i 0).val / 1024) + (i 1).val / 1024 := ⟨⟨_, hlt⟩, rfl⟩
  obtain ⟨-, -, -, -, -, -, e0, e1, -⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1, ht]; omega

/-- The result array after the run is the Gaussian kernel matrix. -/
theorem final (c : Dev nD) : (dats m 0 c).arrAt 3 cfg0.N = gauss m c :=
  (dats m 0 c).arrAt_eq_of_cover 3 (gauss m c) (fun t _ => flushed_eq m c t) cover

/-- The kernel's run, read: the result at the Gaussian kernel matrix, the arguments unchanged. -/
theorem run : θ_run defs (onTc (τ := τ) (main (F := Ideal))) ⟨m, fun _ => 0, ρ⟩ fun r => ∀ c : Dev nD,
      r.2.mem ((c : Thread nD τ).loc main_v4) = gauss m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRead.lean ====
/-
  The reference program computes the Gaussian kernel matrix: read one entry at a time, its result at (r, q) is
  exp (-1 * max ((|x_r|^2 + |c_q|^2) - 2 * <x_r, c_q>, 0)).  The two squared lengths are host sums started from the
  zero word, which denotes 0; the inner product is the host's general dot product contracting the second axis of both
  arrays; the broadcasts only move an entry to the position that names its row or its column.
-/
import proofs.«148469_j65481071400015_2_alg».proof.Proof.Gen.ReferenceIdeal.Read
import proofs.«148469_j65481071400015_2_alg».proof.Proof.Spec
import Idealize.ShloMosaic.PureOps.Ideal.Laws

noncomputable section

open scoped BigOperators

namespace Cert.ReferenceIdeal.RefRead

open Cert.ReferenceIdeal Cert.ReferenceIdeal.Read Idealize.ShloMosaic Idealize.ShloMosaic.ValueIdx

/-- The reference's result, as a function of its two arguments, is the Gaussian kernel matrix. -/
theorem result_eq (x0 : (⟨S16384x512, .f32⟩ : BufTy).Contents (Elt Ideal)) (x1 : (⟨S4096x512, .f32⟩ : BufTy).Contents (Elt Ideal)) :
    val_main_v17 (F := Ideal) x0 x1 = Cert.Rbf.rbf x0 x1 := by
  funext i
  have e1 : ∀ k : Fin 512, idx_main_v1 (idx_main_v2 (idx_main_v7 i)) k = ix2 (i 0) k := fun k =>
    funext fun a => Fin.ext (by match a with | ⟨0, _⟩ => rfl | ⟨1, _⟩ => rfl)
  have e4 : ∀ k : Fin 512, idx_main_v4 (idx_main_v6 (idx_main_v8 i)) k = ix2 (i 1) k := fun k =>
    funext fun a => Fin.ext (by match a with | ⟨0, _⟩ => rfl | ⟨1, _⟩ => rfl)
  have el : ∀ k : Fin 512, lidx_main_v5 i k = ix2 (i 0) k := fun k =>
    funext fun a => Fin.ext (by match a with | ⟨0, _⟩ => rfl | ⟨1, _⟩ => rfl)
  have er : ∀ k : Fin 512, ridx_main_v5 i k = ix2 (i 1) k := fun k =>
    funext fun a => Fin.ext (by match a with | ⟨0, _⟩ => rfl | ⟨1, _⟩ => rfl)
  rw [val_main_v17_apply, val_main_v16_apply, val_main_v15_apply, val_main_cst_3_apply, val_main_v14_apply,
    val_main_v13_apply, val_main_cst_2_apply, val_main_v12_apply, val_main_v9_apply, val_main_v7_apply,
    val_main_v2_apply, val_main_v1_apply, val_main_cst_apply, val_main_v8_apply, val_main_v6_apply,
    val_main_v4_apply, val_main_cst_0_apply, val_main_v11_apply, val_main_v10_apply, val_main_cst_1_apply,
    val_main_v5_apply]
  simp only [val_main_v0_apply, val_main_v3_apply, e1, e4, el, er, Ideal.hostUnary_exp_def, Ideal.mulf_def,
    Ideal.addf_def, Ideal.subf_def, Ideal.maximumf_def, Ideal.ofBits_def, Ideal.ofBits_zero_f32, zero_add]
  simp only [Cert.Rbf.rbf, Cert.Rbf.entry, Cert.Rbf.sqnorm, Cert.Rbf.inner, Ideal.ofBits_zero_f32]
  rfl

end Cert.ReferenceIdeal.RefRead

end
-- ==== Proof.lean ====
/-
  The kernel and its reference compute the same Gaussian kernel matrix.

  For x of 16384 points and 4096 centres, all in dimension 512, both programs produce, at (r, q),
      exp (-1 * max ((|x_r|^2 + |c_q|^2) - 2 * <x_r, c_q>, 0)),
  with the same three float constants.  The reference does it with whole-array host operations.  The kernel walks a
  16 x 4 grid of 1024 x 1024 tiles; at the first tile of each row of tiles it caches the x rows and their squared lengths,
  and every tile is then computed from the caches, a slice of the centres and a slice of their squared lengths, which
  the host prepared.  Over the extended reals a change of float format is the identity, the matrix product into a zero
  accumulator and the host's dot product are the same sum of products, and the lane sum and the host sum are the same
  sum; so each written tile is the restriction of the one matrix above, and the tiles cover the result.  No law is used
  that needs the inputs to be finite: the two sides are equal term by term.

  The frames of the two kernel programs are the generated ones; the reference's frame is its generated run with the
  result dropped; the idealization rewrote nothing, so there is nothing to preserve.
-/
import proofs.«148469_j65481071400015_2_alg».proof.Defs
import proofs.«148469_j65481071400015_2_alg».proof.Proof.Gen.Kernel
import proofs.«148469_j65481071400015_2_alg».proof.Proof.Gen.Kernel.Skeleton
import proofs.«148469_j65481071400015_2_alg».proof.Proof.Gen.Kernel.Launch
import proofs.«148469_j65481071400015_2_alg».proof.Proof.Gen.Kernel.Points
import proofs.«148469_j65481071400015_2_alg».proof.Proof.Gen.Kernel.Frame
import proofs.«148469_j65481071400015_2_alg».proof.Proof.Gen.KernelIdeal
import proofs.«148469_j65481071400015_2_alg».proof.Proof.Gen.KernelIdeal.Skeleton
import proofs.«148469_j65481071400015_2_alg».proof.Proof.Gen.KernelIdeal.Launch
import proofs.«148469_j65481071400015_2_alg».proof.Proof.Gen.KernelIdeal.Points
import proofs.«148469_j65481071400015_2_alg».proof.Proof.Gen.KernelIdeal.Frame
import proofs.«148469_j65481071400015_2_alg».proof.Proof.Gen.ReferenceIdeal
import proofs.«148469_j65481071400015_2_alg».proof.Proof.Gen.Pre_finite_inputs
import proofs.«148469_j65481071400015_2_alg».proof.Proof.Gen.KernelIdeal.Value
import proofs.«148469_j65481071400015_2_alg».proof.Proof.Gen.ReferenceIdeal.Run
import proofs.«148469_j65481071400015_2_alg».proof.Proof.Gen.ReferenceIdeal.Read
import proofs.«148469_j65481071400015_2_alg».proof.Proof.Whole
import proofs.«148469_j65481071400015_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the Gaussian kernel matrix of arguments that agree. -/
theorem algebraic : Cert.algebraic_KernelIdeal_ReferenceIdeal := by
  intro m ρ m' ρ' _ hagree
  refine ⟨fun c => Cert.KernelIdeal.Whole.gauss m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefRead.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
